-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x4096 : Shape := ⟨3, ![16, 3, 4096]⟩
abbrev S_ : Shape := ⟨0, ![]⟩

class Facts : Prop where
  bcast_S_S16x3x4096 : S_.BroadcastsInDim S16x3x4096 (![] : Fin 0 → Fin S16x3x4096.rank)
  reducesTo_S16x3x4096_S_d0_1_2 : S16x3x4096.ReducesTo [0, 1, 2] S_
  h_S_ : 0 < S_.numel

variable [Facts]

def fn {F : FTy → Type} [FloatOps F] (main_arg0 : FVec F S16x3x4096 .f32) (main_arg1 : FVec F S16x3x4096 .f32) : IVec S_ 1 :=
  let main_v0 : FVec F S16x3x4096 .f32 := Host.absf main_arg0
  let main_cst : FVec F S_ .f32 := constant S_ .f32 0x7F800000#32
  let main_v1 : FVec F S16x3x4096 .f32 := broadcastInDim S16x3x4096 ![] bcast_S_S16x3x4096 main_cst
  let main_v2 : IVec S16x3x4096 1 := cmpf .olt main_v0 main_v1
  let main_c : IVec S_ 1 := constantI S_ 1 1#1
  let main_v3 : IVec S_ 1 := (fun x v => Host.reduce IntOp.andi x v reducesTo_S16x3x4096_S_d0_1_2 h_S_) main_v2 main_c
  let main_v4 : FVec F S16x3x4096 .f32 := Host.absf main_arg1
  let main_cst_0 : FVec F S_ .f32 := constant S_ .f32 0x7F800000#32
  let main_v5 : FVec F S16x3x4096 .f32 := broadcastInDim S16x3x4096 ![] bcast_S_S16x3x4096 main_cst_0
  let main_v6 : IVec S16x3x4096 1 := cmpf .olt main_v4 main_v5
  let main_c_1 : IVec S_ 1 := constantI S_ 1 1#1
  let main_v7 : IVec S_ 1 := (fun x v => Host.reduce IntOp.andi x v reducesTo_S16x3x4096_S_d0_1_2 h_S_) main_v6 main_c_1
  let main_v8 : IVec S_ 1 := andi main_v3 main_v7
  main_v8
-- ==== Kernel.lean ====
abbrev S16x3x4096 : Shape := ⟨3, ![16, 3, 4096]⟩
abbrev S16x1x4096 : Shape := ⟨3, ![16, 1, 4096]⟩
abbrev S1x3x1024 : Shape := ⟨3, ![1, 3, 1024]⟩
abbrev S1x3x4096 : Shape := ⟨3, ![1, 3, 4096]⟩
abbrev S1x1x1024 : Shape := ⟨3, ![1, 1, 1024]⟩
abbrev S3x1024 : Shape := ⟨2, ![3, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S16x4096 : Shape := ⟨2, ![16, 4096]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16x3x4096, .f32⟩
  | .hbm, ⟨1, _⟩ => ⟨S16x3x4096, .f32⟩
  | .hbm, ⟨2, _⟩ => ⟨S16x1x4096, .f32⟩
  | .hbm, ⟨3, _⟩ => ⟨S16x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1x1024 : S1024.ShapeCasts S1x1024
  inb_S1x3x4096_S1x3x1024_0_0_0 : ∀ a, (![0, 0, 0] : Fin 3 → Nat) a + S1x3x1024.size a ≤ S1x3x4096.size a
  transposes_S1x1024_p1_0_S1024x1 : S1x1024.Transposes [1, 0] S1024x1
  broadcasts_S1x1024_S1024x1024 : S1x1024.Broadcasts S1024x1024
  broadcasts_S1024x1_S1024x1024 : S1024x1.Broadcasts S1024x1024
  reduces_S1024x1024_S1024 : S1024x1024.Reduces [0] S1024
  inb_S1x3x4096_S1x3x1024_0_0_1024 : ∀ a, (![0, 0, 1024] : Fin 3 → Nat) a + S1x3x1024.size a ≤ S1x3x4096.size a
  inb_S1x3x4096_S1x3x1024_0_0_2048 : ∀ a, (![0, 0, 2048] : Fin 3 → Nat) a + S1x3x1024.size a ≤ S1x3x4096.size a
  inb_S1x3x4096_S1x3x1024_0_0_3072 : ∀ a, (![0, 0, 3072] : Fin 3 → Nat) a + S1x3x1024.size a ≤ S1x3x4096.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x4096_S16x4096 : S16x1x4096.ShapeCasts S16x4096
  reducesTo_S16x4096_S_d0_1 : S16x4096.ReducesTo [0, 1] S_
  h_S_ : 0 < S_.numel
  dot_S3x1024_S3x1024_S1024x1024_0_0_1_1_n_n_wf : DotDims.WF S3x1024 S3x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S16x3x4096.size a
  hwx0_0 : ∀ i : grid0.Coords, EltTy.bits .f32 = 32 ∨ (Rect.block (s := S16x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)

variable [Facts₀]

def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_arg0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x4096 : Shape := ⟨3, ![16, 3, 4096]⟩
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x3x4096, .f32⟩
  | .hbm, ⟨2, _⟩ => ⟨S16x4096x3, .f32⟩
  | .hbm, ⟨3, _⟩ => ⟨S16x4096x3, .f32⟩
  | .hbm, ⟨4, _⟩ => ⟨S16x4096x3, .f32⟩
  | .hbm, ⟨5, _⟩ => ⟨S_, .f32⟩
  | .hbm, ⟨6, _⟩ => ⟨S16x4096, .f32⟩
  | .hbm, ⟨7, _⟩ => ⟨S16x4096x3, .f32⟩
  | .hbm, ⟨8, _⟩ => ⟨S_, .f32⟩
  | .hbm, ⟨9, _⟩ => ⟨S16x4096, .f32⟩
  | .hbm, ⟨10, _⟩ => ⟨S16x4096x4096, .f32⟩
  | .hbm, ⟨11, _⟩ => ⟨S16x4096x1, .f32⟩
  | .hbm, ⟨12, _⟩ => ⟨S16x1x4096, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S16x3x4096_S16x4096x3_0_2_1 : S16x3x4096.Transposes [0, 2, 1] S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Nearest.lean ====
/-
  The quantity both programs compute, on the extended reals. Two clouds of 4096 points in 3-space per batch entry,
  stored coordinate-major: entry (b, d, n) is coordinate d of point n of batch b. For a query point n of the first
  cloud and a key point m of the second, the squared distance is written |x_n|² + |y_m|² − 2·⟨x_n, y_m⟩; the result
  at (b, n) is the least of these over all 4096 keys, the infimum of a finite family (so +∞ is its neutral start).
  Also here: a fold of min from +∞ is that infimum, and the infimum over 4096 keys is the running minimum, started
  at +∞, of the infima over four consecutive runs of 1024 keys.
-/
import Idealize.ShloMosaic.PureOps.Ideal
import Idealize.ShloMosaic.PureOps.Ideal.Laws
import Idealize.ShloMosaic.Lib.ValueIdx

noncomputable section

namespace Cert.Nearest

open Idealize.ShloMosaic Idealize.ShloMosaic.ValueIdx
open scoped BigOperators

/-- A batch of 16 clouds of 4096 points, coordinate-major. -/
abbrev Pts : Shape := ⟨3, ![16, 3, 4096]⟩
/-- One value per batch entry and query point. -/
abbrev Out : Shape := ⟨2, ![16, 4096]⟩

/-- The squared length of point n of batch b. -/
def sqLen (a : Pts.Idx → EReal) (b : Fin 16) (n : Fin 4096) : EReal :=
  ∑ d : Fin 3, a (ix3 b d n) * a (ix3 b d n)

/-- The inner product of point n of x with point m of y, in batch b. -/
def inner (x y : Pts.Idx → EReal) (b : Fin 16) (n m : Fin 4096) : EReal :=
  ∑ d : Fin 3, x (ix3 b d n) * y (ix3 b d m)

/-- The factor 2, as the f32 word both programs write. -/
def two : EReal := Ideal.ofBits .f32 0x40000000#32

/-- |x_n|² + |y_m|² − 2·⟨x_n, y_m⟩. -/
def sqDist (x y : Pts.Idx → EReal) (b : Fin 16) (n m : Fin 4096) : EReal :=
  (sqLen x b n + sqLen y b m) - two * inner x y b n m

/-- The least squared distance from query point n to the keys. -/
def nearest (x y : Pts.Idx → EReal) : Out.Idx → EReal :=
  fun i => Finset.univ.inf fun m : Fin 4096 => sqDist x y (i 0) (i 1) m

/-- The f32 word of +∞ is the top extended real. -/
theorem ofBits_pos_inf : Ideal.ofBits .f32 0x7F800000#32 = (⊤ : EReal) := by
  simp [Ideal.ofBits, Ideal.ieee]

/-- Folding min from +∞ over a finite family gives its infimum. -/
theorem fold_min_top {ι : Type} (s : Finset ι) (f : ι → EReal) : s.fold min (⊤ : EReal) f = s.inf f := by
  induction s using Finset.cons_induction with
  | empty => rfl
  | cons a s ha ih => rw [Finset.fold_cons, Finset.inf_cons, ih]

/-- The infimum over 4096 keys is the running minimum, from +∞, of the infima over the four runs of 1024 keys. -/
theorem inf_four_runs (G : Fin 4096 → EReal) :
    Finset.univ.inf G
      = min (min (min (min (⊤ : EReal) (Finset.univ.inf fun j : Fin 1024 => G ⟨j.val, by omega⟩))
          (Finset.univ.inf fun j : Fin 1024 => G ⟨1024 + j.val, by omega⟩))
          (Finset.univ.inf fun j : Fin 1024 => G ⟨2048 + j.val, by omega⟩))
          (Finset.univ.inf fun j : Fin 1024 => G ⟨3072 + j.val, by omega⟩) := by
  apply le_antisymm
  · refine le_min (le_min (le_min (le_min le_top ?_) ?_) ?_) ?_
    · exact Finset.le_inf fun j _ => Finset.inf_le (Finset.mem_univ _)
    · exact Finset.le_inf fun j _ => Finset.inf_le (Finset.mem_univ _)
    · exact Finset.le_inf fun j _ => Finset.inf_le (Finset.mem_univ _)
    · exact Finset.le_inf fun j _ => Finset.inf_le (Finset.mem_univ _)
  · refine Finset.le_inf fun m _ => ?_
    have hm := m.isLt
    by_cases h1 : m.val < 1024
    · refine ((min_le_left _ _).trans ((min_le_left _ _).trans ((min_le_left _ _).trans (min_le_right _ _)))).trans ?_
      exact (Finset.inf_le (f := fun j : Fin 1024 => G ⟨j.val, by omega⟩)
        (Finset.mem_univ (⟨m.val, h1⟩ : Fin 1024)))
    · by_cases h2 : m.val < 2048
      · refine ((min_le_left _ _).trans ((min_le_left _ _).trans (min_le_right _ _))).trans ?_
        refine (Finset.inf_le (f := fun j : Fin 1024 => G ⟨1024 + j.val, by omega⟩)
          (Finset.mem_univ (⟨m.val - 1024, by omega⟩ : Fin 1024))).trans (le_of_eq ?_)
        exact congrArg G (Fin.ext (by show 1024 + (m.val - 1024) = m.val; omega))
      · by_cases h3 : m.val < 3072
        · refine ((min_le_left _ _).trans (min_le_right _ _)).trans ?_
          refine (Finset.inf_le (f := fun j : Fin 1024 => G ⟨2048 + j.val, by omega⟩)
            (Finset.mem_univ (⟨m.val - 2048, by omega⟩ : Fin 1024))).trans (le_of_eq ?_)
          exact congrArg G (Fin.ext (by show 2048 + (m.val - 2048) = m.val; omega))
        · refine (min_le_right _ _).trans ?_
          refine (Finset.inf_le (f := fun j : Fin 1024 => G ⟨3072 + j.val, by omega⟩)
            (Finset.mem_univ (⟨m.val - 3072, by omega⟩ : Fin 1024))).trans (le_of_eq ?_)
          exact congrArg G (Fin.ext (by show 3072 + (m.val - 3072) = m.val; omega))

end Cert.Nearest

end
-- ==== Proof.LibMatmulFirst.lean ====
/-
  The product of a k×m matrix's transpose with a k×n matrix, read at an entry. When both operands are
  contracted on their FIRST axis (no batch axis), the contraction index is one coordinate `c < k`, the
  left operand's entry is (c, row) and the right operand's is (c, column). So the entry (a, b) of the
  product is `∑ c, A (c, a) · B (c, b)` — accumulated into a zero array, into any accumulator (then that
  accumulator's entry is added), or computed with no accumulator under any evaluation schedule.
  Nothing here mentions a program.
-/
import Idealize.ShloMosaic.PureOps.Ideal
import Idealize.ShloMosaic.PureOps.Ideal.Laws
import Idealize.ShloMosaic.Lib.ValueIdx

noncomputable section

namespace Cert.LibE

open Idealize.ShloMosaic Idealize.ShloMosaic.ValueIdx
open scoped BigOperators

/-- The dimension numbers `<[0], [0], [1], [1]>` with no batch axis: k×m by k×n, both operands contracted on
    their first axis, the result m×n. -/
def firstAxes (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The re-indexing itself: the sum over the contraction index of the products of the operands' entries at
    output index (a, b) is the sum over `c : Fin k` of `A (c, a) · B (c, b)`. -/
theorem firstAxes_contraction_sum {K M N : Nat} (A : (⟨2, ![K, M]⟩ : Shape).Idx → EReal)
    (B : (⟨2, ![K, N]⟩ : Shape).Idx → EReal) (a : Fin M) (b : Fin N) :
    (∑ q : (firstAxes K M N).contr.Idx,
        A ((firstAxes K M N).lhsIdx (ix2 a b) q) * B ((firstAxes K M N).rhsIdx (ix2 a b) q))
      = ∑ c : Fin K, A (ix2 c a) * B (ix2 c b) := by
  rw [← Equiv.sum_comp (contrEquiv1 (firstAxes K M N) K rfl rfl).symm]
  refine Finset.sum_congr rfl fun c _ => ?_
  have c2 := contrEquiv1_symm_val (firstAxes K M N) K rfl rfl c
  have l2 : (firstAxes K M N).lhsIdx (ix2 a b) ((contrEquiv1 _ K rfl rfl).symm c) = ix2 c a := by
    funext ax; apply Fin.ext
    match ax with
    | ⟨0, _⟩ => simp [DotDims.lhsIdx, firstAxes]; exact c2
    | ⟨1, _⟩ => simp [DotDims.lhsIdx, firstAxes]; rfl
  have r2 : (firstAxes K M N).rhsIdx (ix2 a b) ((contrEquiv1 _ K rfl rfl).symm c) = ix2 c b := by
    funext ax; apply Fin.ext
    match ax with
    | ⟨0, _⟩ => simp [DotDims.rhsIdx, firstAxes]; exact c2
    | ⟨1, _⟩ => simp [DotDims.rhsIdx, firstAxes]; rfl
  rw [l2, r2]

/-- The product accumulated into ANY accumulator, read at entry (a, b): the accumulator's entry plus
    `∑ c, A (c, a) · B (c, b)`. -/
theorem matmul_firstAxes_apply {K M N : Nat} {φ₁ φ₂ : FTy} (prec : Option ContractPrecision)
    (A : FVec Ideal ⟨2, ![K, M]⟩ φ₁) (B : FVec Ideal ⟨2, ![K, N]⟩ φ₂) (acc : FVec Ideal ⟨2, ![M, N]⟩ .f32)
    (a : Fin M) (b : Fin N) :
    FloatOps.matmul (firstAxes K M N) prec A B acc (ix2 a b)
      = acc (ix2 a b) + ∑ c : Fin K, A (ix2 c a) * B (ix2 c b) := by
  rw [Ideal.matmul_apply, firstAxes_contraction_sum]

/-- The product accumulated into the zero array, read at entry (a, b): `∑ c, A (c, a) · B (c, b)`. -/
theorem matmul_firstAxes_zero_apply {K M N : Nat} {φ₁ φ₂ : FTy} (prec : Option ContractPrecision)
    (A : FVec Ideal ⟨2, ![K, M]⟩ φ₁) (B : FVec Ideal ⟨2, ![K, N]⟩ φ₂) (a : Fin M) (b : Fin N) :
    FloatOps.matmul (firstAxes K M N) prec A B (constant ⟨2, ![M, N]⟩ .f32 0x00000000#32) (ix2 a b)
      = ∑ c : Fin K, A (ix2 c a) * B (ix2 c b) := by
  rw [Ideal.matmul_constant_zero_apply, firstAxes_contraction_sum]

/-- The product with no accumulator, under ANY evaluation schedule, read at entry (a, b). -/
theorem dotGeneral_firstAxes_apply_sched {K M N : Nat} {φ₁ φ₂ : FTy} (prec : Option ContractPrecision)
    (sched : HostSchedule) (A : FVec Ideal ⟨2, ![K, M]⟩ φ₁) (B : FVec Ideal ⟨2, ![K, N]⟩ φ₂)
    (a : Fin M) (b : Fin N) :
    FloatOps.dotGeneral (firstAxes K M N) prec sched A B (ix2 a b)
      = ∑ c : Fin K, A (ix2 c a) * B (ix2 c b) := by
  rw [Ideal.dotGeneral_apply, firstAxes_contraction_sum]

end Cert.LibE

end
-- ==== Proof.LibReduce.lean ====
/-
  A sum over the rows of an R×C array read at a column. Reducing axis 0 of a two-axis array leaves a
  one-axis array indexed by the column; the source indices that reduce to column `q` are exactly the
  (r, q) for `r < R` (the column with the row coordinate inserted), so the reduction at `q` is
  `∑ r, src (r, q)` — for a reduction with no initial value, and, for one onto an initial value, that
  value plus the same sum. Nothing here mentions a program.
-/
import Idealize.ShloMosaic.PureOps.Ideal
import Idealize.ShloMosaic.PureOps.Ideal.Laws
import Idealize.ShloMosaic.Lib.ValueIdx

noncomputable section

namespace Cert.LibE

open Idealize.ShloMosaic Idealize.ShloMosaic.ValueIdx
open scoped BigOperators

/-- The column index `q` with the row coordinate `r` inserted on axis 0 is the index (r, q): on axis 0 the
    inserted coordinate, on axis 1 the column. -/
theorem lift_axis0 {R C : Nat} (h : Shape.Reduces ⟨2, ![R, C]⟩ [(0 : Fin 2)] ⟨1, ![C]⟩) (q : Fin C) (r : Fin R) :
    h.lift (ix1 q) r = ix2 r q := by
  funext ax; apply Fin.ext
  match ax with
  | ⟨0, _⟩ => rfl
  | ⟨1, _⟩ => rfl

/-- A one-axis result's removal of axis 0 in the host's sense is also one in the vector sense (a result of
    rank one has at least one axis). -/
theorem reduces_of_reducesTo_axis0 {R C : Nat} (h : Shape.ReducesTo ⟨2, ![R, C]⟩ [(0 : Fin 2)] ⟨1, ![C]⟩) :
    Shape.Reduces ⟨2, ![R, C]⟩ [(0 : Fin 2)] ⟨1, ![C]⟩ := ⟨h.1, Nat.one_pos, h.2⟩

/-- The exact sum over axis 0 read at column `q`: `∑ r, x (r, q)`. -/
theorem reduceAdd_axis0_apply {R C : Nat} (x : (⟨2, ![R, C]⟩ : Shape).Idx → EReal)
    (h : Shape.Reduces ⟨2, ![R, C]⟩ [(0 : Fin 2)] ⟨1, ![C]⟩) (q : Fin C) :
    Ideal.reduceAdd h x (ix1 q) = ∑ r : Fin R, x (ix2 r q) := by
  rw [Ideal.reduceAdd_single]
  exact Finset.sum_congr rfl fun r _ => congrArg x (lift_axis0 h q r)

/-- A vector sum-reduction over axis 0 of an R×C vector, read at column `q`, is `∑ r, src (r, q)`, whatever
    the side proofs the reduction carries. -/
theorem multiReduction_add_axis0_apply {R C : Nat} {φ : FTy} (src : FVec Ideal ⟨2, ![R, C]⟩ φ) (acc : BitVec φ.bits)
    (h : Shape.Reduces ⟨2, ![R, C]⟩ [(0 : Fin 2)] ⟨1, ![C]⟩) (hφ : FKind.Formats φ)
    (hacc : acc = FKind.add.neutral φ hφ) (q : Fin C) :
    multiReduction .add [(0 : Fin 2)] ⟨1, ![C]⟩ src acc h hφ hacc (ix1 q) = ∑ r : Fin R, src (ix2 r q) := by
  rw [Ideal.multiReduction_add_single]
  exact Finset.sum_congr rfl fun r _ => congrArg src (lift_axis0 h q r)

/-- The exact sum over axis 0 onto an initial value, read at column `q`: the initial value plus
    `∑ r, x (r, q)`. -/
theorem hostReduceAdd_axis0_apply {R C : Nat} (x : (⟨2, ![R, C]⟩ : Shape).Idx → EReal) (init : EReal)
    (h : Shape.ReducesTo ⟨2, ![R, C]⟩ [(0 : Fin 2)] ⟨1, ![C]⟩) (q : Fin C) :
    Ideal.hostReduceAdd h x init (ix1 q) = init + ∑ r : Fin R, x (ix2 r q) := by
  rw [Ideal.hostReduceAdd_single h (reduces_of_reducesTo_axis0 h)]
  exact congrArg (init + ·) (Finset.sum_congr rfl fun r _ => congrArg x (lift_axis0 _ q r))

/-- The same through the class field, at ANY schedule key. -/
theorem floatOps_hostReduceAdd_axis0_apply {R C : Nat} {φ : FTy} (sched : HostSchedule)
    (x : FVec Ideal ⟨2, ![R, C]⟩ φ) (init : Ideal φ)
    (h : Shape.ReducesTo ⟨2, ![R, C]⟩ [(0 : Fin 2)] ⟨1, ![C]⟩) (q : Fin C) :
    FloatOps.hostReduceAdd [(0 : Fin 2)] h sched x init (ix1 q) = init + ∑ r : Fin R, x (ix2 r q) := by
  rw [Ideal.hostReduceAdd_def]; exact hostReduceAdd_axis0_apply x init h q

/-- A host sum-reduction over axis 0 of an R×C array from a rank-zero initial value, read at column `q`,
    is the initial value's one element plus `∑ r, x (r, q)`, whatever the side proofs it carries. -/
theorem host_reduceAdd_axis0_apply {R C : Nat} {φ : FTy} (x : FVec Ideal ⟨2, ![R, C]⟩ φ)
    (init : (⟨0, ![]⟩ : Shape).Idx → Ideal φ)
    (h : Shape.ReducesTo ⟨2, ![R, C]⟩ [(0 : Fin 2)] ⟨1, ![C]⟩) (hu : 0 < (⟨0, ![]⟩ : Shape).numel) (q : Fin C) :
    Host.reduceAdd x init h hu (ix1 q) = init ix0 + ∑ r : Fin R, x (ix2 r q) := by
  show FloatOps.hostReduceAdd [(0 : Fin 2)] h .single x (init (Shape.Idx.first hu)) (ix1 q) = _
  rw [floatOps_hostReduceAdd_axis0_apply, eq_ix0 (Shape.Idx.first hu)]

/-- The same at any schedule key. -/
theorem host_reduceAddAt_axis0_apply {R C : Nat} {φ : FTy} (sched : HostSchedule) (x : FVec Ideal ⟨2, ![R, C]⟩ φ)
    (init : (⟨0, ![]⟩ : Shape).Idx → Ideal φ)
    (h : Shape.ReducesTo ⟨2, ![R, C]⟩ [(0 : Fin 2)] ⟨1, ![C]⟩) (hu : 0 < (⟨0, ![]⟩ : Shape).numel) (q : Fin C) :
    Host.reduceAddAt sched x init h hu (ix1 q) = init ix0 + ∑ r : Fin R, x (ix2 r q) := by
  show FloatOps.hostReduceAdd [(0 : Fin 2)] h sched x (init (Shape.Idx.first hu)) (ix1 q) = _
  rw [floatOps_hostReduceAdd_axis0_apply, eq_ix0 (Shape.Idx.first hu)]

end Cert.LibE

end
-- ==== Proof.LibRows.lean ====
/-
  Row-wise readings of rank-2 arrays at the exact (extended-real) values, over literal rank-2 shapes
  `[a, b]` and indices built from their two coordinates.

  * layout: a column `[a, 1]` broadcast along the rows to `[a, b]` reads, at (p, c), the column's entry
    (p, 0); a vector `[a]` cast to a column `[a, 1]` reads, at (p, 0), the vector's entry p; a vector
    `[b]` broadcast to its one row `[1, b]` reads its entry c at (0, c); a row or column broadcast through
    `broadcast_in_dim` along the identity axes reads likewise.
  * reductions over the second axis: the lane sum of row p is `∑ k, x (p, k)`; the lane maximum of row p
    is the fold of `max` over `k ↦ x (p, k)` from the accumulator's value; the host's reduce with an add
    or a maximum body over the second axis reads the same sum (plus the initial value) and the same fold.
  * `max` against the bottom element `-∞` is the identity, and the f32 word `0xFF800000` denotes it.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx
open scoped BigOperators

variable {α : Type}

/-! ## Layout -/

/-- A column `[a, 1]` broadcast to `[a, b]` reads, at (p, c), the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A vector `[a]` put on the rows of a column `[a, 1]` by `broadcast_in_dim` (axis 0 to axis 0) reads, at
    (p, u), the vector's entry p. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A vector `[b]` put on the columns of a row `[1, b]` by `broadcast_in_dim` (axis 0 to axis 1) reads, at
    (u, c), the vector's entry c. -/
theorem broadcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α)
    (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A column `[a, 1]` spread over `[a, b]` by `broadcast_in_dim` along the identity axes reads, at (p, c), the
    column's entry (p, 0). -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α)
    (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A row `[1, b]` spread over `[a, b]` by `broadcast_in_dim` along the identity axes reads, at (p, c), the
    row's entry (0, c). -/
theorem broadcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α)
    (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-! ## Reductions over the second axis -/

/-- Row p's reduced index with the lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of row p is the sum of the row's entries. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The lane maximum of row p is the fold of `max` over the row's entries from the accumulator's value. -/
theorem multiReduction_max_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with an add body over the second axis, at row p: the initial value plus the sum of the
    row's entries. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ k : Fin b, x (ix2 p k) := by
  rw [Ideal.hostReduceAdd_single h' h]
  exact congrArg (init + ·) (Finset.sum_congr rfl fun k _ => congrArg x (lift_row h p k))

/-- The host's reduce with a maximum body over the second axis, at row p: the fold of `max` over the row's
    entries from the initial value. -/
theorem hostReduce_max_row {a b : ℕ} {u : Shape} (x : FVec Ideal ⟨2, ![a, b]⟩ .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

/-! ## The bottom element -/

/-- The f32 word of `-∞` denotes the bottom extended real. -/
theorem ofBits_neg_inf : Ideal.ofBits .f32 0xFF800000#32 = (⊥ : EReal) := by
  simp [Ideal.ofBits, Ideal.ieee]

/-- `max` against the bottom element is the identity. -/
theorem max_bot_left (y : EReal) : max (⊥ : EReal) y = y := max_eq_right bot_le

end Cert.LibRows

end
-- ==== Proof.LibMinReduce.lean ====
/-
  Minima over one axis of an array of extended reals, read at an index. Reducing axis 0 of an R×C array with
  the minimum leaves one value per column q: the fold of min, from the starting value, over the entries (r, q).
  Reducing the last axis of an A×B×C array leaves one value per (p, q): the fold of min over the entries
  (p, q, k). Nothing here mentions a program.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduce

open Idealize.ShloMosaic Idealize.ShloMosaic.ValueIdx

/-- The column index q with the row coordinate r inserted on axis 0 is (r, q). -/
theorem lift_axis0 {R C : Nat} (h : Shape.Reduces ⟨2, ![R, C]⟩ [(0 : Fin 2)] ⟨1, ![C]⟩) (q : Fin C) (r : Fin R) :
    h.lift (ix1 q) r = ix2 r q := by
  funext ax; apply Fin.ext
  match ax with
  | ⟨0, _⟩ => rfl
  | ⟨1, _⟩ => rfl

/-- The minimum over axis 0 of an R×C vector, read at column q: the fold of min over the column's entries
    from the accumulator's value. -/
theorem multiReduction_min_axis0_apply {R C : Nat} (src : FVec Ideal ⟨2, ![R, C]⟩ .f32) (acc : BitVec 32)
    (h : Shape.Reduces ⟨2, ![R, C]⟩ [(0 : Fin 2)] ⟨1, ![C]⟩) (hφ : FKind.Formats .f32)
    (hacc : acc = FKind.minimumf.neutral .f32 hφ) (q : Fin C) :
    multiReduction .minimumf [(0 : Fin 2)] ⟨1, ![C]⟩ src acc h hφ hacc (ix1 q)
      = (Finset.univ : Finset (Fin R)).fold min (Ideal.ofBits .f32 acc) (fun r => src (ix2 r q)) := by
  rw [multiReduction_minimumf_eq_fold]
  refine (h.fold_filter_drop_single FloatOps.minimumf _ src (ix1 q)).trans ?_
  have hf : (src ∘ h.lift (ix1 q)) = fun r : Fin R => src (ix2 r q) :=
    funext fun r => congrArg src (lift_axis0 h q r)
  exact congrArg (fun f => Finset.fold min (Ideal.ofBits .f32 acc) f (Finset.univ : Finset (Fin R))) hf

/-- The index (p, q) with the coordinate k inserted on the last axis is (p, q, k). -/
theorem lift_axis2 {A B C : Nat} (h : Shape.Reduces ⟨3, ![A, B, C]⟩ [(2 : Fin 3)] ⟨2, ![A, B]⟩) (p : Fin A) (q : Fin B)
    (k : Fin C) : h.lift (ix2 p q) k = ix3 p q k := by
  funext ax; apply Fin.ext
  match ax with
  | ⟨0, _⟩ => rfl
  | ⟨1, _⟩ => rfl
  | ⟨2, _⟩ => rfl

/-- The host's reduce with a minimum body over the last axis of an A×B×C array, at (p, q): the fold of min
    over the entries (p, q, k) from the initial value. -/
theorem hostReduce_min_axis2_apply {A B C : Nat} {u : Shape} (x : FVec Ideal ⟨3, ![A, B, C]⟩ .f32)
    (init : u.Idx → Ideal .f32) (h' : Shape.ReducesTo ⟨3, ![A, B, C]⟩ [(2 : Fin 3)] ⟨2, ![A, B]⟩) (hu : 0 < u.numel)
    (p : Fin A) (q : Fin B) :
    Host.reduce FloatOps.minimumf x init h' hu (ix2 p q)
      = (Finset.univ : Finset (Fin C)).fold min (init (Shape.Idx.first hu)) (fun k => x (ix3 p q k)) := by
  have h : Shape.Reduces ⟨3, ![A, B, C]⟩ [(2 : Fin 3)] ⟨2, ![A, B]⟩ := ⟨h'.1, Nat.two_pos, h'.2⟩
  rw [Host.reduce_eq_fold_single FloatOps.minimumf x init h' h hu]
  have hf : (x ∘ h.lift (ix2 p q)) = fun k : Fin C => x (ix3 p q k) :=
    funext fun k => congrArg x (lift_axis2 h p q k)
  exact congrArg (fun f => Finset.fold min (init (Shape.Idx.first hu)) f (Finset.univ : Finset (Fin C))) hf

end Cert.LibMinReduce

end
-- ==== Proof.BodyValue.lean ====
/-
  What the kernel body leaves in its output block, read at a lane. The body holds one block of 1024 query
  points (3×1024, coordinate-major) and all 4096 key points (3×4096) of one batch entry. For each of four runs of
  1024 keys it forms the 1024×1024 table (key j, query i) ↦ |x_i|² + |y_j|² − 2·⟨y_j, x_i⟩ — the squared lengths as
  sums over the three coordinates, the inner products as one matrix product contracted over the coordinate axis —
  takes the minimum over the keys (axis 0), and keeps the running minimum from +∞. So lane i of the block ends at
  the infimum over all 4096 keys of the squared distance from query i.
-/
import proofs.«163672_j52570399703230_2_alg».proof.Proof.Gen.KernelIdeal.Skeleton
import proofs.«163672_j52570399703230_2_alg».proof.Proof.Nearest
import proofs.«163672_j52570399703230_2_alg».proof.Proof.LibMatmulFirst
import proofs.«163672_j52570399703230_2_alg».proof.Proof.LibReduce
import proofs.«163672_j52570399703230_2_alg».proof.Proof.LibRows
import proofs.«163672_j52570399703230_2_alg».proof.Proof.LibMinReduce
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

variable {F : FTy → Type} [FloatOps F]

/-! ## The body's arithmetic, cut into its repeated pieces -/

/-- The row of squared lengths of the 1024 columns of a 3×1024 block. -/
def sqRow (v : FVec F S3x1024 .f32) : FVec F S1x1024 .f32 :=
  shapeCast S1x1024 (multiReduction .add [0] S1024 (mulf v v) 0x00000000#32 reduces_S3x1024_S1024 (.inl rfl) rfl)
    shapeCasts_S1024_S1x1024

/-- The table (key j, query i) ↦ xx_i + |y_j|² − 2·⟨y_j, x_i⟩ for one run of keys y. -/
def distTable (x : FVec F S3x1024 .f32) (xx : FVec F S1x1024 .f32) (y : FVec F S3x1024 .f32) : FVec F S1024x1024 .f32 :=
  subf
    (addf (broadcastTo S1024x1024 xx broadcasts_S1x1024_S1024x1024)
      (broadcastTo S1024x1024 (transpose S1024x1 [1, 0] (sqRow y) transposes_S1x1024_p1_0_S1024x1)
        broadcasts_S1024x1_S1024x1024))
    (mulf (broadcast S1024x1024 (Scalar.ofBits .f32 0x40000000#32))
      (matmul dot_S3x1024_S3x1024_S1024x1024_0_0_1_1_n_n (some .fp32) y x (constant S1024x1024 .f32 0x00000000#32)))

/-- The minimum of that table over the keys, as a row, for the run of keys loaded as the block yc. -/
def runMin (x : FVec F S3x1024 .f32) (xx : FVec F S1x1024 .f32) (yc : Vec F S1x3x1024 .f32) : FVec F S1x1024 .f32 :=
  shapeCast S1x1024
    (multiReduction .minimumf [0] S1024 (distTable x xx (shapeCast S3x1024 yc shapeCasts_S1x3x1024_S3x1024))
      0x7F800000#32 reduces_S1024x1024_S1024 (.inl rfl) rfl)
    shapeCasts_S1024_S1x1024

/-- The queries' squared lengths are the row of squared lengths of the query block. -/
theorem pay3_eq (v0 : Vec F S1x3x1024 .f32) : k0_pay3 v0 = sqRow (k0_pay2 v0) := rfl

/-- After two runs: the running minimum from +∞. -/
theorem pay4_eq (v0 v6 v22 : Vec F S1x3x1024 .f32) :
    k0_pay4 v0 v6 v22
      = minimumf (minimumf (broadcast S1x1024 (Scalar.ofBits .f32 0x7F800000#32))
          (runMin (k0_pay2 v0) (k0_pay3 v0) v6)) (runMin (k0_pay2 v0) (k0_pay3 v0) v22) := rfl

/-- After the last two runs, cast to the output block's shape. -/
theorem pay1_eq (v1 : FVec F S3x1024 .f32) (v4 v37 : FVec F S1x1024 .f32) (v38 v54 : Vec F S1x3x1024 .f32) :
    k0_pay1 v1 v4 v37 v38 v54
      = shapeCast S1x1x1024 (minimumf (minimumf v37 (runMin v1 v4 v38)) (runMin v1 v4 v54))
          shapeCasts_S1x1024_S1x1x1024 := rfl

/-! ## Each piece read at an index, on the extended reals -/

/-- Lane i of the row of squared lengths is the sum of the squares of column i's three entries. -/
theorem sqRow_apply (v : FVec Ideal S3x1024 .f32) (u : Fin 1) (i : Fin 1024) :
    sqRow v (ix2 u i) = ∑ d : Fin 3, v (ix2 d i) * v (ix2 d i) := by
  unfold sqRow
  rw [shapeCast_a_1a_apply]
  exact Cert.LibE.multiReduction_add_axis0_apply (mulf v v) _ _ _ _ i

/-- Entry (j, i) of the table. -/
theorem distTable_apply (x : FVec Ideal S3x1024 .f32) (xx : FVec Ideal S1x1024 .f32) (y : FVec Ideal S3x1024 .f32)
    (j i : Fin 1024) :
    distTable x xx y (ix2 j i)
      = (xx (ix2 (0 : Fin 1) i) + ∑ d : Fin 3, y (ix2 d j) * y (ix2 d j))
          - Cert.Nearest.two * ∑ d : Fin 3, y (ix2 d j) * x (ix2 d i) := by
  unfold distTable
  rw [subf_apply, addf_apply, mulf_apply, broadcast_apply, broadcastTo_1b_ab_apply,
    Cert.LibRows.broadcastTo_a1_ab_apply, transpose_ix2_apply, sqRow_apply]
  have hm : matmul dot_S3x1024_S3x1024_S1024x1024_0_0_1_1_n_n (some .fp32) y x (constant S1024x1024 .f32 0x00000000#32) (ix2 j i)
      = ∑ d : Fin 3, y (ix2 d j) * x (ix2 d i) :=
    Cert.LibE.matmul_firstAxes_zero_apply (K := 3) (M := 1024) (N := 1024) (some .fp32) y x j i
  rw [hm]
  rfl

/-- Lane i of the minimum over one run of keys: the infimum over the run's 1024 keys. -/
theorem runMin_apply (x : FVec Ideal S3x1024 .f32) (xx : FVec Ideal S1x1024 .f32) (yc : Vec Ideal S1x3x1024 .f32)
    (u : Fin 1) (i : Fin 1024) :
    runMin x xx yc (ix2 u i)
      = Finset.univ.inf fun j : Fin 1024 =>
          (xx (ix2 (0 : Fin 1) i) + ∑ d : Fin 3, yc (ix3 (0 : Fin 1) d j) * yc (ix3 (0 : Fin 1) d j))
            - Cert.Nearest.two * ∑ d : Fin 3, yc (ix3 (0 : Fin 1) d j) * x (ix2 d i) := by
  unfold runMin
  rw [shapeCast_a_1a_apply]
  refine (Cert.LibMinReduce.multiReduction_min_axis0_apply (R := 1024) (C := 1024) _ 0x7F800000#32
    reduces_S1024x1024_S1024 (.inl rfl) rfl i).trans ?_
  rw [Cert.Nearest.ofBits_pos_inf, Cert.Nearest.fold_min_top]
  refine Finset.inf_congr rfl fun j _ => ?_
  rw [distTable_apply]
  simp only [shapeCast_1ab_ab_apply]

end Cert.KernelIdeal.Body

end
-- ==== Proof.BlockValue.lean ====
/-
  The output block as one function of the two input blocks. The body's output block is its single store, whose
  payload is the running minimum over the four runs of keys; each run is read out of the key block at lane offsets
  0, 1024, 2048, 3072. So lane i of the output block is the infimum, over all 4096 keys m of the key block, of
  |x_i|² + |y_m|² − 2·⟨y_m, x_i⟩, with x_i column i of the query block.
-/
import proofs.«163672_j52570399703230_2_alg».proof.Proof.Gen.KernelIdeal.Frame
import proofs.«163672_j52570399703230_2_alg».proof.Proof.BodyValue

noncomputable section

namespace Cert.KernelIdeal.Block

open Cert.KernelIdeal Cert.KernelIdeal.Gen Idealize.ShloMosaic Idealize.ShloMosaic.ValueIdx
open scoped BigOperators

theorem hz3 : (![0, 0, 0] : Fin 3 → Nat) = fun _ => 0 := funext fun a => by fin_cases a <;> rfl

/-- The query block with its leading unit axis dropped, at (d, i). -/
theorem pay2_apply (x0 : Vec Ideal S1x3x1024 .f32) (d : Fin 3) (i : Fin 1024) :
    k0_pay2 x0 (ix2 d i) = x0 (ix3 (0 : Fin 1) d i) :=
  shapeCast_1ab_ab_apply x0 _ d i

/-- A run of 1024 keys loaded from lane offset o of the key block: its key j is the block's key o + j. -/
theorem ld_run (x1 : Vec Ideal S1x3x4096 .f32) (o : Nat)
    (inb : ∀ a, (![0, 0, o] : Fin 3 → Nat) a + S1x3x1024.size a ≤ S1x3x4096.size a) (d : Fin 3) (j : Fin 1024)
    (mm : Fin 4096) (hm : mm.val = o + j.val) :
    View.ld x1 (Rect.unit (s := S1x3x4096) ![0, 0, o] S1x3x1024.size inb) (ix3 (0 : Fin 1) d j)
      = x1 (ix3 (0 : Fin 1) d mm) := by
  show x1 ((Rect.unit (s := S1x3x4096) ![0, 0, o] S1x3x1024.size inb).emb (ix3 (0 : Fin 1) d j)) = _
  refine congrArg x1 (funext fun a => Fin.ext ?_)
  match a with
  | ⟨0, _⟩ => rfl
  | ⟨1, _⟩ => show 0 + 1 * d.val = d.val; omega
  | ⟨2, _⟩ => show o + 1 * j.val = mm.val; omega

/-- The squared distance from column i of the query block to key m of the key block, as the body spells it. -/
def blockDist (x0 : Vec Ideal S1x3x1024 .f32) (x1 : Vec Ideal S1x3x4096 .f32) (i : Fin 1024) (mm : Fin 4096) : EReal :=
  ((∑ d : Fin 3, x0 (ix3 (0 : Fin 1) d i) * x0 (ix3 (0 : Fin 1) d i))
      + ∑ d : Fin 3, x1 (ix3 (0 : Fin 1) d mm) * x1 (ix3 (0 : Fin 1) d mm))
    - Cert.Nearest.two * ∑ d : Fin 3, x1 (ix3 (0 : Fin 1) d mm) * x0 (ix3 (0 : Fin 1) d i)

/-- One run's minimum, from the key block: the infimum of the block distances over the run's keys. -/
theorem run_apply (x0 : Vec Ideal S1x3x1024 .f32) (x1 : Vec Ideal S1x3x4096 .f32) (o : Nat)
    (inb : ∀ a, (![0, 0, o] : Fin 3 → Nat) a + S1x3x1024.size a ≤ S1x3x4096.size a) (ho : o + 1024 ≤ 4096)
    (u : Fin 1) (i : Fin 1024) :
    Body.runMin (k0_pay2 x0) (k0_pay3 x0) (View.ld x1 (Rect.unit (s := S1x3x4096) ![0, 0, o] S1x3x1024.size inb)) (ix2 u i)
      = Finset.univ.inf fun j : Fin 1024 => blockDist x0 x1 i ⟨o + j.val, by omega⟩ := by
  rw [Body.runMin_apply]
  refine Finset.inf_congr rfl fun j _ => ?_
  unfold blockDist
  rw [Body.pay3_eq, Body.sqRow_apply]
  simp only [pay2_apply, fun d => ld_run x1 o inb d j ⟨o + j.val, by omega⟩ rfl]

/-- Lane i of the output block: the infimum over all 4096 keys. -/
theorem out_apply (x0 : Vec Ideal S1x3x1024 .f32) (x1 : Vec Ideal S1x3x4096 .f32) (u v : Fin 1) (i : Fin 1024) :
    out0_2 x0 x1 (ix3 u v i) = Finset.univ.inf fun mm : Fin 4096 => blockDist x0 x1 i mm := by
  unfold out0_2
  rw [View.canon_unit_zero hz3]
  simp only [View.ld_unit_zero (S := S1x3x1024) hz3]
  rw [Body.pay1_eq, shapeCast_ab_1ab_apply, Body.pay4_eq]
  rw [minimumf_apply, minimumf_apply, minimumf_apply, minimumf_apply, broadcast_apply]
  rw [run_apply x0 x1 0 _ (by omega), run_apply x0 x1 1024 _ (by omega), run_apply x0 x1 2048 _ (by omega),
    run_apply x0 x1 3072 _ (by omega), Cert.Nearest.inf_four_runs]
  have hs : FloatOps.ofBits (F := Ideal) .f32 0x7F800000#32 = (⊤ : EReal) := Cert.Nearest.ofBits_pos_inf
  rw [hs]
  refine congrArg₂ min (congrArg₂ min (congrArg₂ min (congrArg₂ min rfl ?_) rfl) rfl) rfl
  exact Finset.inf_congr rfl fun j _ => congrArg (blockDist x0 x1 i) (Fin.ext (Nat.zero_add _))

end Cert.KernelIdeal.Block

end
-- ==== Proof.Mean.lean ====
/-
  The last two steps both programs share: the sum of all 16·4096 nearest squared distances, from the f32 zero,
  divided by the f32 word 0x48000000 (131072 = 2·4096·16). Kept as one function of the 16×4096 array so that the
  two programs are compared before it and never through it.
-/
import Idealize.ShloMosaic.PureOps.Ideal
import proofs.«163672_j52570399703230_2_alg».proof.Proof.Nearest

noncomputable section

namespace Cert.Nearest

open Idealize.ShloMosaic

/-- The shape of a single number. -/
abbrev S0 : Shape := ⟨0, ![]⟩

theorem out_reducesTo : Out.ReducesTo [0, 1] S0 := by decide
theorem s0_pos : 0 < S0.numel := by decide

/-- The sum of all entries from the f32 zero, divided by the f32 word of 131072. -/
def mean (D : FVec Ideal Out .f32) : FVec Ideal S0 .f32 :=
  Host.divf (F := Ideal)
    (Host.reduceAdd (F := Ideal) D (constant (F := Ideal) S0 .f32 0x00000000#32) out_reducesTo s0_pos)
    (constant (F := Ideal) S0 .f32 0x48000000#32)

end Cert.Nearest

end
-- ==== Proof.KernelArray.lean ====
/-
  From blocks to the result. Grid point (b, q) of the 16×4 grid reads queries 1024·q … 1024·q + 1023 of batch b
  and all keys of batch b, and writes lanes 1024·q … 1024·q + 1023 of row (b, 0) of the 16×1×4096 output array. The
  64 blocks tile that array, so after the run its entry (b, 0, n) is the nearest squared distance of query n of
  batch b. The lines after the call drop the unit axis, add all entries and divide: the shared last two steps.
-/
import proofs.«163672_j52570399703230_2_alg».proof.Proof.Gen.KernelIdeal.Frame
import proofs.«163672_j52570399703230_2_alg».proof.Proof.BlockValue
import proofs.«163672_j52570399703230_2_alg».proof.Proof.Mean
import Idealize.ShloMosaic.Lib.StableHlo.Run
import Idealize.ShloMosaic.Lib.Pipeline.Value

noncomputable section

namespace Cert.KernelIdeal.Array

open Cert.KernelIdeal Cert.KernelIdeal.Gen Idealize.ShloMosaic Idealize.ShloMosaic.ValueIdx
open Idealize.ShloMosaic.TcCoe Idealize.SL.Sem Idealize.ShloMosaic.StableHlo
open Idealize.ShloMosaic.Pipeline (Dat)
open scoped BigOperators

variable (m : (ℓ : Loc nD τ sig) → Buf (Elt Ideal) ℓ) (ρ : Dev nD → PrngReg)

/-- The output array as one function of the argument arrays: entry (b, 0, n) is the nearest squared distance
    of query n of batch b. -/
def nearestRows (est gt : S16x3x4096.Idx → EReal) : S16x1x4096.Idx → EReal :=
  fun i => Cert.Nearest.nearest est gt (ix2 (⟨(i 0).val, (i 0).isLt⟩ : Fin 16) (⟨(i 2).val, (i 2).isLt⟩ : Fin 4096))

/-- The printed index maps, decided over the 64 grid points: the query block and the output block move together,
    the key block follows the batch only, and the block indices stay in range. -/
theorem idx_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 3) = win0_2.index t (0 : Fin 3) ∧ win0_1.index t (1 : Fin 3) = 0
    ∧ win0_1.index t (2 : Fin 3) = 0
    ∧ win0_2.index t (1 : Fin 3) = 0 ∧ win0_2.index t (0 : Fin 3) < 16 ∧ win0_2.index t (2 : Fin 3) < 4 :=
  (by decide +kernel : ∀ t : Fin grid0.N, _)

/-- Every block of the output array is some grid point's. -/
theorem idx_onto : ∀ (q0 : Fin 16) (q2 : Fin 4), ∃ t : Fin cfg0.N, win0_2.index t = ![q0.val, 0, q2.val] :=
  (by decide +kernel : ∀ (q0 : Fin 16) (q2 : Fin 4), ∃ t : Fin grid0.N, win0_2.index t = ![q0.val, 0, q2.val])

/-- What grid point t writes back is block t of that function of the argument arrays as the call finds them. -/
theorem flushed_eq (c : Dev nD) (t : Fin cfg0.N) :
    (dats m 0 c).flushed 2 t
      = ((cfg0.win 2).blk t).view.read (Elt Ideal) (nearestRows (V m c main_arg0) (V m c main_arg1)) := by
  show (cfg0.win 2).cut (grid0.coords t) ((dats m 0 c).after 2 t) = _
  rw [after0_2]
  obtain ⟨e00, e01, e02, e10, e11, e12, e21, h20, h22⟩ := idx_facts t
  funext y
  obtain ⟨u, v, i, rfl⟩ : ∃ (u v : Fin 1) (i : Fin 1024), y = ix3 u v i :=
    ⟨y 0, y 1, y 2, eq_ix3 (n0 := 1) (n1 := 1) (n2 := 1024) y⟩
  have hu : u.val = 0 := by omega
  have hv : v.val = 0 := by omega
  refine (Block.out_apply (iblk m c 0 t) (iblk m c 1 t) u v i).trans ?_
  show _ = Finset.univ.inf fun mm : Fin 4096 => Cert.Nearest.sqDist (V m c main_arg0) (V m c main_arg1)
    (⟨win0_2.index t (0 : Fin 3) * 1 + 1 * u.val, by omega⟩ : Fin 16)
    (⟨win0_2.index t (2 : Fin 3) * 1024 + 1 * i.val, by omega⟩ : Fin 4096) mm
  refine Finset.inf_congr rfl fun mm _ => ?_
  have hq : ∀ d : Fin 3, iblk m c 0 t (ix3 (0 : Fin 1) d i)
      = V m c main_arg0 (ix3 (⟨win0_2.index t (0 : Fin 3) * 1 + 1 * u.val, by omega⟩ : Fin 16) d
          (⟨win0_2.index t (2 : Fin 3) * 1024 + 1 * i.val, by omega⟩ : Fin 4096)) := fun d => by
    show V m c main_arg0 (((cfg0.win 0).blk t).view.emb (ix3 (0 : Fin 1) d i)) = _
    refine congrArg (V m c main_arg0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 3 + 1 * d.val = d.val; omega
    | ⟨2, _⟩ => show win0_0.index t (2 : Fin 3) * 1024 + 1 * i.val = win0_2.index t (2 : Fin 3) * 1024 + 1 * i.val; omega
  have hk : ∀ d : Fin 3, iblk m c 1 t (ix3 (0 : Fin 1) d mm)
      = V m c main_arg1 (ix3 (⟨win0_2.index t (0 : Fin 3) * 1 + 1 * u.val, by omega⟩ : Fin 16) d mm) := fun d => by
    show V m c main_arg1 (((cfg0.win 1).blk t).view.emb (ix3 (0 : Fin 1) d mm)) = _
    refine congrArg (V m c main_arg1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 3 + 1 * d.val = d.val; omega
    | ⟨2, _⟩ => show win0_1.index t (2 : Fin 3) * 4096 + 1 * mm.val = mm.val; omega
  unfold Block.blockDist Cert.Nearest.sqDist Cert.Nearest.sqLen Cert.Nearest.inner
  simp only [hq, hk]
  exact congrArg₂ (· - ·) rfl (congrArg (Cert.Nearest.two * ·) (Finset.sum_congr rfl fun d _ => mul_comm _ _))

/-- An index of the output array is in grid point t's block iff each coordinate is in the block's range. -/
theorem mem_blk (t : Fin cfg0.N) (i : S16x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0).slice (win0_2.rect t)).set ↔ _
  rw [View.set_slice_whole, Rect.mem_set_unit]
  exact Iff.rfl

/-- The blocks tile the output array: entry (b, 0, n) is in the block of grid point (b, n / 1024). -/
theorem cover (i : S16x1x4096.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 4096 := (i 2).isLt
  obtain ⟨t, ht⟩ := idx_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- The output array after the run. -/
theorem final (c : Dev nD) :
    (dats m 0 c).arrAt 2 cfg0.N = nearestRows (V m c main_arg0) (V m c main_arg1) :=
  (dats m 0 c).arrAt_eq_of_cover 2 (nearestRows (V m c main_arg0) (V m c main_arg1))
    (fun t _ => flushed_eq m c t) cover

/-- With the unit axis dropped, the output array is the 16×4096 array of nearest squared distances. -/
theorem reshape_nearestRows (est gt : S16x3x4096.Idx → EReal) :
    shapeCast S16x4096 (nearestRows est gt) shapeCasts_S16x1x4096_S16x4096 = Cert.Nearest.nearest est gt := by
  funext i
  obtain ⟨b, n, rfl⟩ : ∃ (b : Fin 16) (n : Fin 4096), i = ix2 b n := ⟨i 0, i 1, eq_ix2 i⟩
  exact shapeCast_apply (nearestRows est gt) shapeCasts_S16x1x4096_S16x4096 (ix2 b n) (ix3 b (0 : Fin 1) n) (by
    rw [Shape.rowMajor_val_three, Shape.rowMajor_val_two]
    show (b.val * 1 + 0) * 4096 + n.val = b.val * 4096 + n.val
    omega)

/-- The program's result after the lines that follow the call. -/
theorem result_eq (c : Dev nD) :
    Pipeline.afterTail₀ cfgs (dats m) 0 (V0 m) [hostOps1] c main_v3
      = Cert.Nearest.mean (Cert.Nearest.nearest (m ((c.tc : Thread nD τ).loc main_arg0)) (m ((c.tc : Thread nD τ).loc main_arg1))) := by
  unfold Pipeline.afterTail₀
  show StableHlo.after hostOps1 _ (Proc.devRef .tc main_v3) = _
  after_results
  rw [Pipeline.withArrays_arr spec0 launch0.win.arr_inj c _ _ 2]
  show Cert.Nearest.mean (shapeCast S16x4096 ((dats m 0 c).arrAt 2 cfg0.N) shapeCasts_S16x1x4096_S16x4096) = _
  rw [final, reshape_nearestRows]
  rfl

/-- The run, read: the result at the shared last two steps of the nearest squared distances, the arguments
    unchanged. -/
theorem run : θ_run defs (onTc (τ := τ) (main (F := Ideal))) ⟨m, fun _ => 0, ρ⟩ fun r => ∀ c : Dev nD,
      r.2.mem ((c.tc : Thread nD τ).loc main_v3)
        = Cert.Nearest.mean (Cert.Nearest.nearest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (by decide)).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Array

end
-- ==== Proof.RefValue.lean ====
/-
  The reference, read at an index. It transposes both clouds to point-major, sums the squares of the three
  coordinates of every point, forms all inner products ⟨x_n, y_m⟩ by one batched product contracted over the
  coordinate axis, builds the full 16×4096×4096 table |x_n|² + |y_m|² − 2·⟨x_n, y_m⟩ and takes the minimum over the
  keys m from +∞. Index by index that table is the squared distance, and its minimum the nearest squared distance.
-/
import proofs.«163672_j52570399703230_2_alg».proof.Proof.Gen.ReferenceIdeal.Read
import proofs.«163672_j52570399703230_2_alg».proof.Proof.Nearest
import proofs.«163672_j52570399703230_2_alg».proof.Proof.Mean
import proofs.«163672_j52570399703230_2_alg».proof.Proof.LibMinReduce

noncomputable section

namespace Cert.ReferenceIdeal.RefValue

open Cert.ReferenceIdeal Cert.ReferenceIdeal.Gen Cert.ReferenceIdeal.Read Idealize.ShloMosaic Idealize.ShloMosaic.ValueIdx
open scoped BigOperators

/-- Coordinate d of query point n, through the transposition, the sum's index and the two broadcasts. -/
theorem idx_sq_query (b : Fin 16) (n m : Fin 4096) (k : Fin 3) :
    idx_main_v0 (idx_main_v3 (idx_main_v7 (idx_main_v9 (ix3 b n m))) k) = ix3 b k n :=
  funext fun a => Fin.ext (by match a with | ⟨0, _⟩ => rfl | ⟨1, _⟩ => rfl | ⟨2, _⟩ => rfl)

/-- Coordinate d of key point m, likewise. -/
theorem idx_sq_key (b : Fin 16) (n m : Fin 4096) (k : Fin 3) :
    idx_main_v1 (idx_main_v5 (idx_main_v8 (idx_main_v10 (ix3 b n m))) k) = ix3 b k m :=
  funext fun a => Fin.ext (by match a with | ⟨0, _⟩ => rfl | ⟨1, _⟩ => rfl | ⟨2, _⟩ => rfl)

/-- The product's left factor is coordinate k of query point n, -/
theorem idx_dot_query (b : Fin 16) (n m : Fin 4096) (k : Fin 3) :
    idx_main_v0 (lidx_main_v6 (ix3 b n m) k) = ix3 b k n :=
  funext fun a => Fin.ext (by match a with | ⟨0, _⟩ => rfl | ⟨1, _⟩ => rfl | ⟨2, _⟩ => rfl)

/-- its right factor coordinate k of key point m. -/
theorem idx_dot_key (b : Fin 16) (n m : Fin 4096) (k : Fin 3) :
    idx_main_v1 (ridx_main_v6 (ix3 b n m) k) = ix3 b k m :=
  funext fun a => Fin.ext (by match a with | ⟨0, _⟩ => rfl | ⟨1, _⟩ => rfl | ⟨2, _⟩ => rfl)

/-- Entry (b, n, m) of the reference's table is the squared distance from query n to key m. -/
theorem table_apply (x0 x1 : (⟨S16x3x4096, .f32⟩ : BufTy).Contents (Elt Ideal)) (b : Fin 16) (n m : Fin 4096) :
    val_main_v14 (F := Ideal) x0 x1 (ix3 b n m) = Cert.Nearest.sqDist x0 x1 b n m := by
  rw [val_main_v14_apply, val_main_v11_apply, val_main_v13_apply, val_main_v9_apply, val_main_v7_apply,
    val_main_v3_apply, val_main_v10_apply, val_main_v8_apply, val_main_v5_apply, val_main_v12_apply,
    val_main_v6_apply]
  simp only [val_main_v2_apply, val_main_v4_apply, val_main_v0_apply, val_main_v1_apply, val_main_cst_apply,
    val_main_cst_0_apply, val_main_cst_1_apply, idx_sq_query, idx_sq_key, idx_dot_query, idx_dot_key,
    Ideal.subf_def, Ideal.addf_def, Ideal.mulf_def, Ideal.ofBits_def, Ideal.ofBits_zero_f32, zero_add]
  rfl

/-- The reference's minimum over the keys is the nearest squared distance. -/
theorem nearest_eq (x0 x1 : (⟨S16x3x4096, .f32⟩ : BufTy).Contents (Elt Ideal)) :
    val_main_v15 (F := Ideal) x0 x1 = Cert.Nearest.nearest x0 x1 := by
  funext i
  obtain ⟨b, n, rfl⟩ : ∃ (b : Fin 16) (n : Fin 4096), i = ix2 b n := ⟨i 0, i 1, eq_ix2 i⟩
  unfold val_main_v15
  refine (Cert.LibMinReduce.hostReduce_min_axis2_apply (A := 16) (B := 4096) (C := 4096)
    (val_main_v14 (F := Ideal) x0 x1) (val_main_cst_2 (F := Ideal)) reducesTo_S16x4096x4096_S16x4096_d2 h_S_ b n).trans ?_
  rw [val_main_cst_2_apply, Ideal.ofBits_def, Cert.Nearest.ofBits_pos_inf, Cert.Nearest.fold_min_top]
  exact Finset.inf_congr rfl fun m _ => table_apply x0 x1 b n m

/-- The reference's result is the shared last two steps of the nearest squared distances. -/
theorem result_eq (x0 x1 : (⟨S16x3x4096, .f32⟩ : BufTy).Contents (Elt Ideal)) :
    val_main_v17 (F := Ideal) x0 x1 = Cert.Nearest.mean (Cert.Nearest.nearest x0 x1) := by
  rw [← nearest_eq]
  rfl

end Cert.ReferenceIdeal.RefValue

end
-- ==== Proof.lean ====
/-
  The five claims for the nearest-neighbour (one-sided Chamfer) distance between two batches of point clouds.

  Both programs take est, gt : f32[16, 3, 4096] (batch, coordinate, point) and return one number: for every batch b
  and every query point n of est the least, over the 4096 key points m of gt, of
      |x_n|² + |y_m|² − 2·⟨x_n, y_m⟩,
  all 16·4096 of these added up and divided by 131072.

  The kernel computes the inner products of a block of 1024 queries with a run of 1024 keys as a 3-term matrix
  product, takes the minimum over each run of keys and keeps a running minimum from +∞ over the four runs; the
  reference builds the whole 16×4096×4096 table and takes one minimum over the keys from +∞. On the extended reals
  the entries agree term by term (only the order of the two factors of each product differs, and multiplication
  commutes), and an infimum over 4096 keys is the running minimum of the infima over four runs of 1024 — laws of
  the order alone, so no finiteness of the inputs is used. The last two steps (sum, division by the same f32 word)
  are the same function on both sides and are never opened.

  The three frames are the generated ones (the reference's is its generated run with the result dropped); the
  ideal pass rewrote nothing, so the idealization claim is trivial.
-/
import proofs.«163672_j52570399703230_2_alg».proof.Defs
import proofs.«163672_j52570399703230_2_alg».proof.Proof.Gen.Kernel
import proofs.«163672_j52570399703230_2_alg».proof.Proof.Gen.Kernel.Skeleton
import proofs.«163672_j52570399703230_2_alg».proof.Proof.Gen.Kernel.Launch
import proofs.«163672_j52570399703230_2_alg».proof.Proof.Gen.Kernel.Points
import proofs.«163672_j52570399703230_2_alg».proof.Proof.Gen.Kernel.Frame
import proofs.«163672_j52570399703230_2_alg».proof.Proof.Gen.KernelIdeal
import proofs.«163672_j52570399703230_2_alg».proof.Proof.Gen.KernelIdeal.Skeleton
import proofs.«163672_j52570399703230_2_alg».proof.Proof.Gen.KernelIdeal.Launch
import proofs.«163672_j52570399703230_2_alg».proof.Proof.Gen.KernelIdeal.Points
import proofs.«163672_j52570399703230_2_alg».proof.Proof.Gen.KernelIdeal.Frame
import proofs.«163672_j52570399703230_2_alg».proof.Proof.Gen.ReferenceIdeal
import proofs.«163672_j52570399703230_2_alg».proof.Proof.Gen.Pre_finite_inputs
import proofs.«163672_j52570399703230_2_alg».proof.Proof.Gen.ReferenceIdeal.Run
import proofs.«163672_j52570399703230_2_alg».proof.Proof.Gen.ReferenceIdeal.Read
import proofs.«163672_j52570399703230_2_alg».proof.Proof.KernelArray
import proofs.«163672_j52570399703230_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two clouds both programs end at the shared last two steps of the nearest
    squared distances: the kernel by its blocks tiling the output array, the reference index by index. -/
theorem algebraic : Cert.algebraic_KernelIdeal_ReferenceIdeal := by
  intro m ρ m' ρ' _ hagree
  refine ⟨fun c => Cert.Nearest.mean (Cert.Nearest.nearest
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Array.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.result_eq,
    (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
